-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 24
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .bf16⟩
  | .hbm, ⟨22, _⟩ => ⟨S1x4096, .f32⟩
  | .hbm, ⟨23, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S8192x4096, .f32⟩
  | .hbm, ⟨22, _⟩ => ⟨S1x4096, .f32⟩
  | .hbm, ⟨23, _⟩ => ⟨S8192x4096, .f32⟩
  | .hbm, ⟨24, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What each control case of the kernel body leaves behind, as a value.

  The body keeps a running [1024, 1024] block `acc` in a scratch buffer across the eight reduction steps of one
  output block.  At the first step it stores zeros and then `acc + x_blk · q_blkᵀ`; at every later step it stores
  `acc + x_blk · q_blkᵀ` over what the step before left; at the last step it also stores `acc + bias` into the
  output block.  The three lemmas about the scratch and the one about the output say exactly this, over the
  body's pure payload terms: the single covering store's payload, with every load of a whole buffer read back
  as the buffer's contents.
-/
import proofs.«108350_j4423816315410_2_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- First reduction step: zeros are stored, read back, and `0 + x_blk · q_blkᵀ` is left in the scratch. -/
theorem scratch_first (c : Dev nD) (i : grid0.Coords) (a3 : Memref sig .tc .vmem S1024x512 .f32) (h3 : a3.IsWhole) (a4 : Memref sig .tc .vmem S1024x512 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 : Vec F S1024x512 .f32) (x1 : Vec F S1024x512 .bf16) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x512) hz]

/-- A middle reduction step: `acc + x_blk · q_blkᵀ` over the scratch contents `acc` the step before left. -/
theorem scratch_middle (c : Dev nD) (i : grid0.Coords) (a3 : Memref sig .tc .vmem S1024x512 .f32) (h3 : a3.IsWhole) (a4 : Memref sig .tc .vmem S1024x512 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 : Vec F S1024x512 .f32) (x1 : Vec F S1024x512 .bf16) (x2 : Vec F S1x1024 .f32) (xs0 : Vec F S1024x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h3.read_unread, h4.read_unread, h7.read_unread, View.ld_unit_zero (S := S1024x512) hz, View.ld_unit_zero (S := S1024x1024) hz]

/-- The last reduction step leaves the same running sum in the scratch … -/
theorem scratch_last (c : Dev nD) (i : grid0.Coords) (a3 : Memref sig .tc .vmem S1024x512 .f32) (h3 : a3.IsWhole) (a4 : Memref sig .tc .vmem S1024x512 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x512 .f32) (x1 : Vec F S1024x512 .bf16) (x2 : Vec F S1x1024 .f32) (xs0 : Vec F S1024x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x512) hz, View.ld_unit_zero (S := S1024x1024) hz]

/-- … and stores that running sum plus the bias row into the output block. -/
theorem out_last (c : Dev nD) (i : grid0.Coords) (a3 : Memref sig .tc .vmem S1024x512 .f32) (h3 : a3.IsWhole) (a4 : Memref sig .tc .vmem S1024x512 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x512 .f32) (x1 : Vec F S1024x512 .bf16) (x2 : Vec F S1x1024 .f32) (xs0 : Vec F S1024x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread, View.ld_unit_zero (S := S1024x512) hz, View.ld_unit_zero (S := S1024x1024) hz, View.ld_unit_zero (S := S1x1024) hz]

end Cert.KernelIdeal.Acc
end
-- ==== Proof.PayloadAt.lean ====
/-
  The body's three payload terms read at one element, over the extended reals.

  `k0_pay1` is the zero block.  `k0_pay2 x q acc` is `acc + x · qᵀ` where the product contracts the shared
  512-long axis of the [1024, 512] blocks `x` and `q`: element (p, r) is `acc (p, r) + ∑ k, x (p, k) * q (r, k)`
  (the change of float format applied to `x` first is the identity on extended reals).  `k0_pay3 a b` adds the
  [1, 1024] row `b` to every row of `a`.
-/
import proofs.«108350_j4423816315410_2_alg».proof.Proof.Gen.KernelIdeal.Value
import Idealize.ShloMosaic.Lib.Pipeline.Value
import Idealize.ShloMosaic.Lib.Tactic
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx

/-- The zero block is zero everywhere. -/
theorem zero_block_apply (j : S1024x1024.Idx) : k0_pay1 (F := Ideal) j = 0 := by
  unfold k0_pay1
  rw [shapeCast_self]
  exact Ideal.ofBits_zero_f32

/-- Row coordinate of the left operand of the block product: the output's row. -/
theorem lhs_row (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- Column coordinate of the left operand: the contracted position. -/
theorem lhs_col (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
/-- Row coordinate of the right operand: the output's column (the right operand is used transposed). -/
theorem rhs_row (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- Column coordinate of the right operand: the contracted position. -/
theorem rhs_col (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The block product into a zero accumulator, at element (p, r): the sum over the contracted axis. -/
theorem block_product_apply (x : FVec Ideal S1024x512 .bf16) (q : FVec Ideal S1024x512 .bf16) (p r : Fin 1024) :
    FloatOps.matmul dot_S1024x512_S1024x512_S1024x1024_1_1_0_0_n_n none x q (constant S1024x1024 .f32 0x00000000#32) (ix2 p r)
      = ∑ k : Fin 512, x (ix2 p k) * q (ix2 r k) := by
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p r) ((contrEquiv1 dot_S1024x512_S1024x512_S1024x1024_1_1_0_0_n_n 512 rfl rfl).symm k) = ix2 p k := funext fun a => Fin.ext (by
    match a with
    | ⟨0, _⟩ => exact lhs_row _ _
    | ⟨1, _⟩ => exact (lhs_col _ _).trans hk)
  have er : dot_S1024x512_S1024x512_S1024x1024_1_1_0_0_n_n.rhsIdx (ix2 p r) ((contrEquiv1 dot_S1024x512_S1024x512_S1024x1024_1_1_0_0_n_n 512 rfl rfl).symm k) = ix2 r k := funext fun a => Fin.ext (by
    match a with
    | ⟨0, _⟩ => exact rhs_row _ _
    | ⟨1, _⟩ => exact (rhs_col _ _).trans hk)
  rw [el, er]

/-- One reduction step at element (p, r): the running sum plus this step's 512 products. -/
theorem step_apply (x : Vec Ideal S1024x512 .f32) (q : Vec Ideal S1024x512 .bf16) (acc : Vec Ideal S1024x1024 .f32) (p r : Fin 1024) :
    k0_pay2 x q acc (ix2 p r) = acc (ix2 p r) + ∑ k : Fin 512, x (ix2 p k) * q (ix2 r k) := by
  unfold k0_pay2
  simp only [shapeCast_self]
  exact congrArg (acc (ix2 p r) + ·) (block_product_apply x q p r)

/-- The epilogue at element (p, r): the running sum plus the bias row's entry of column r. -/
theorem epilogue_apply (a : Vec Ideal S1024x1024 .f32) (b : Vec Ideal S1x1024 .f32) (p r : Fin 1024) :
    k0_pay3 a b (ix2 p r) = a (ix2 p r) + b (ix2 0 r) := by
  unfold k0_pay3
  simp only [shapeCast_self]
  refine congrArg (a (ix2 p r) + ·) ?_
  exact broadcastTo_apply b broadcasts_S1x1024_S1024x1024 (ix2 p r) (ix2 0 r) (fun d => by
    match d with
    | ⟨0, _⟩ => rfl
    | ⟨1, _⟩ => rfl)

end Cert.KernelIdeal.Acc
end
-- ==== Proof.Fold.lean ====
/-
  The running sum in the scratch buffer after any grid point.

  Within one output block the eight reduction steps are eight consecutive grid points `8·(t/8) … 8·(t/8) + 7`.
  The first stores `0 + (its block product)`, each later one adds its own block product to what the step before
  left.  Hence after point `t` the scratch holds, at element (p, r), zero plus the sum over the steps
  `s = 0 … t % 8` of `∑ k, x_blk_s (p, k) * q_blk_s (r, k)`.
-/
import proofs.«108350_j4423816315410_2_alg».proof.Proof.Gen.KernelIdeal.Value
import Idealize.ShloMosaic.Lib.Pipeline.Value
import Idealize.ShloMosaic.Lib.Tactic
import proofs.«108350_j4423816315410_2_alg».proof.Proof.Pieces
import proofs.«108350_j4423816315410_2_alg».proof.Proof.PayloadAt

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx

variable (m : (ℓ : Loc nD τ sig) → Buf (Elt Ideal) ℓ)

/-- What point `n` leaves in the scratch over what the point before left: one reduction step, from the zero
    block at the first step of a run. -/
theorem step_eq (c : Dev nD) (n : ℕ) (hb : n < cfg0.N) (acc : Vec Ideal S1024x1024 .f32) :
    Value.scAt0_0 m c n hb acc
      = k0_pay2 (iblk m c 0 ⟨n, hb⟩) (iblk m c 1 ⟨n, hb⟩) (if n % 8 = 0 then k0_pay1 (F := Ideal) else acc) := by
  unfold Value.scAt0_0
  by_cases h0 : n % 8 = 0
  · have h1 : ¬n % 8 = 7 := by omega
    rw [dif_pos h0, dif_neg h1, if_pos h0]
    exact scratch_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 ⟨n, hb⟩) (iblk m c 1 ⟨n, hb⟩) (iblk m c 2 ⟨n, hb⟩)
  · rw [dif_neg h0, if_neg h0]
    by_cases h1 : n % 8 = 7
    · rw [dif_pos h1]
      exact scratch_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 ⟨n, hb⟩) (iblk m c 1 ⟨n, hb⟩) (iblk m c 2 ⟨n, hb⟩) acc
    · rw [dif_neg h1]
      exact scratch_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 ⟨n, hb⟩) (iblk m c 1 ⟨n, hb⟩) (iblk m c 2 ⟨n, hb⟩) acc

/-- Element (p, r) of the product of an `x` block with the transpose of a weight block. -/
def blockProduct (x : Vec Ideal S1024x512 .f32) (q : Vec Ideal S1024x512 .bf16) (i : S1024x1024.Idx) : EReal :=
  ∑ k : Fin 512, x (ix2 (i 0) k) * q (ix2 (i 1) k)

/-- The block product of point `n` at one element (zero past the grid, where it is never used). -/
def addend (c : Dev nD) (n : ℕ) (i : S1024x1024.Idx) : EReal :=
  if h : n < cfg0.N then blockProduct (iblk m c 0 ⟨n, h⟩) (iblk m c 1 ⟨n, h⟩) i else 0

theorem addend_of_lt (c : Dev nD) (n : ℕ) (h : n < cfg0.N) (i : S1024x1024.Idx) :
    addend m c n i = blockProduct (iblk m c 0 ⟨n, h⟩) (iblk m c 1 ⟨n, h⟩) i := by
  unfold addend
  rw [dif_pos h]

/-- The scratch after point `t`: zero plus the block products of the run's steps up to `t`. -/
theorem scratch_fold (c : Dev nD) (t : Fin cfg0.N) (i : S1024x1024.Idx) :
    (outsAt0 m c t.val t.isLt).2 i = 0 + ∑ s ∈ Finset.range (t.val % 8 + 1), addend m c (8 * (t.val / 8) + s) i := by
  rw [Value.soutsAt0_0_eq]
  refine Pipeline.accAt_add_apply _ _ (fun _ => (0 : EReal)) (addend m c) (8 * (t.val / 8)) 7 ?_ ?_ (t.val % 8) (by omega) _ i
  · intro h j
    obtain ⟨p, r, rfl⟩ : ∃ (p r : Fin 1024), j = ix2 p r := ⟨j 0, j 1, eq_ix2 j⟩
    show Value.scAt0_0 m c (8 * (t.val / 8)) h _ (ix2 p r) = _
    rw [step_eq, if_pos (by omega), step_apply, zero_block_apply, addend_of_lt m c _ h]
    rfl
  · intro n h acc j hlo hhi
    obtain ⟨p, r, rfl⟩ : ∃ (p r : Fin 1024), j = ix2 p r := ⟨j 0, j 1, eq_ix2 j⟩
    rw [step_eq, if_neg (by omega), step_apply, addend_of_lt m c _ h]
    rfl

end Cert.KernelIdeal.Acc
end
-- ==== Proof.Spec.lean ====
/-
  The function both programs compute, over the extended reals.

  `ternary W` is the weight matrix quantized to {-1, 0, 1}: with γ = (∑ |W|) / 2²⁴ + ε (the mean of the 4096²
  absolute values plus a small constant), each entry is round-half-even (W / γ) clamped to [-1, 1].  It is kept
  as ONE term, spelled with the host operations exactly as both programs spell it, and is never opened: the two
  programs apply the same operations to the same array, and only the matrix product after it differs in shape.

  `linear X Q b` is the affine map: entry (r, c) is `(∑ k, X (r, k) * Q (c, k)) + b c` — the rows of `X` against
  the rows of `Q` (a product with the transpose), plus the bias of the column.
-/
import Idealize.ShloMosaic.PureOps.Ideal
import Idealize.ShloMosaic.Lib.ValueIdx

noncomputable section

open scoped BigOperators

namespace Cert.QLinear

open Idealize.ShloMosaic Idealize.ShloMosaic.ValueIdx

abbrev SX : Shape := ⟨2, ![8192, 4096]⟩
abbrev SW : Shape := ⟨2, ![4096, 4096]⟩
abbrev SB : Shape := ⟨1, ![4096]⟩
abbrev S0 : Shape := ⟨0, ![]⟩

/-- The ternary quantization of the weights, in the host operations' own spelling. -/
def ternary (hr : SW.ReducesTo [0, 1] S0) (h0 : 0 < S0.numel) (hb : S0.BroadcastsInDim SW (![] : Fin 0 → Fin SW.rank))
    (W : FVec Ideal SW .f32) : FVec Ideal SW .f32 :=
  minimumf (broadcastInDim SW ![] hb (id (constant (F := Ideal) S0 .f32 0x3F800000#32)))
    (maximumf (broadcastInDim SW ![] hb (id (constant (F := Ideal) S0 .f32 0xBF800000#32)))
      (Host.roundeven (F := Ideal) (Host.divf (F := Ideal) W (broadcastInDim SW ![] hb
        (addf (Host.divf (F := Ideal) (Host.reduceAdd (F := Ideal) (Host.absf (F := Ideal) W) (constant (F := Ideal) S0 .f32 0x00000000#32) hr h0)
          (constant (F := Ideal) S0 .f32 0x4B800000#32)) (constant (F := Ideal) S0 .f32 0x3727C5AC#32))))))

/-- `X · Qᵀ + b`, entry by entry. -/
def linear (X : FVec Ideal SX .f32) (Q : FVec Ideal SW .f32) (b : FVec Ideal SB .f32) : FVec Ideal SX .f32 :=
  fun i => (∑ k : Fin 4096, X (ix2 (i 0) k) * Q (ix2 (i 1) k)) + b (ix1 (i 1))

end Cert.QLinear

end
-- ==== Proof.Blocks.lean ====
/-
  The arrays the kernel's windows read, and one element of a block in terms of the whole array.

  Grid point `t` of the 8 × 4 × 8 grid has row-block `t / 32`, column-block `t / 8 % 4` and reduction step
  `t % 8`.  Its `x` block is rows `1024·(t/32) …`, columns `512·(t%8) …` of `x`; its weight block is rows
  `1024·(t/8%4) …`, columns `512·(t%8) …` of the quantized weights; its bias block is columns
  `1024·(t/8%4) …` of the bias row; its output block is rows `1024·(t/32) …`, columns `1024·(t/8%4) …`.
  The quantized weights are computed by the host before the launch: the same operations as the specification's
  `ternary` (the final change of float format is the identity on extended reals); the bias row is the bias
  reshaped to one row.
-/
import proofs.«108350_j4423816315410_2_alg».proof.Proof.Gen.KernelIdeal.Value
import Idealize.ShloMosaic.Lib.Pipeline.Value
import Idealize.ShloMosaic.Lib.Tactic
import Idealize.ShloMosaic.Lib.ValueIdx
import Idealize.ShloMosaic.Lib.StableHlo.Run
import proofs.«108350_j4423816315410_2_alg».proof.Proof.Spec

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.QLinear

variable (m : (ℓ : Loc nD τ sig) → Buf (Elt Ideal) ℓ)

/-- The activations, as an array of extended reals. -/
abbrev xArr (c : Dev nD) : FVec Ideal SX .f32 := m ((c : Thread nD τ).loc main_arg0)
/-- The ternary weights of the weight argument. -/
abbrev wArr (c : Dev nD) : FVec Ideal SW .f32 :=
  ternary Facts₀.reducesTo_S4096x4096_S_d0_1 Facts₀.h_S_ Facts₀.bcast_S_S4096x4096 (m ((c : Thread nD τ).loc main_arg1))
/-- The bias. -/
abbrev bArr (c : Dev nD) : FVec Ideal SB .f32 := m ((c : Thread nD τ).loc main_arg2)

/-- The block indices of the four windows at a grid point, decided once over the 256 points. -/
theorem index_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The weights the launch finds are the specification's ternary weights of the weight argument. -/
theorem weights_eq (c : Dev nD) :
    (V m c main_v8 : S4096x4096.Idx → EReal) = wArr m c := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The bias row the launch finds is the bias argument as one row. -/
theorem bias_eq (c : Dev nD) :
    (V m c main_v9 : S1x4096.Idx → EReal)
      = shapeCast S1x4096 (m ((c : Thread nD τ).loc main_arg2)) Facts₀.shapeCasts_S4096_S1x4096 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- One element of the `x` block at point `t`: the element of `x` at the block's offset. -/
theorem x_block_apply (c : Dev nD) (t : Fin cfg0.N) (p : Fin 1024) (k : Fin 512) (R : Fin 8192) (K : Fin 4096)
    (hR : R.val = 1024 * (t.val / 32) + p.val) (hK : K.val = 512 * (t.val % 8) + k.val) :
    (iblk m c 0 t : Vec Ideal S1024x512 .f32) (ix2 p k) = xArr m c (ix2 R K) := by
  obtain ⟨e0, e1, -⟩ := index_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = R.val; omega
  | ⟨1, _⟩ => show win0_0.index t (1 : Fin 2) * 512 + 1 * k.val = K.val; omega

/-- One element of the weight block at point `t`: the element of the ternary weights at the block's offset. -/
theorem w_block_apply (c : Dev nD) (t : Fin cfg0.N) (r : Fin 1024) (k : Fin 512) (C : Fin 4096) (K : Fin 4096)
    (hC : C.val = 1024 * (t.val / 8 % 4) + r.val) (hK : K.val = 512 * (t.val % 8) + k.val) :
    (iblk m c 1 t : Vec Ideal S1024x512 .bf16) (ix2 r k) = wArr m c (ix2 C K) := by
  obtain ⟨-, -, e0, e1, -⟩ := index_facts t
  unfold iblk
  rw [View.read_apply]
  show (V m c main_v8 : S4096x4096.Idx → EReal) _ = _
  rw [weights_eq]
  refine congrArg _ (funext fun a => Fin.ext ?_)
  match a with
  | ⟨0, _⟩ => show win0_1.index t (0 : Fin 2) * 1024 + 1 * r.val = C.val; omega
  | ⟨1, _⟩ => show win0_1.index t (1 : Fin 2) * 512 + 1 * k.val = K.val; omega

/-- One element of the bias block at point `t`: the bias of the block's column. -/
theorem bias_block_apply (c : Dev nD) (t : Fin cfg0.N) (r : Fin 1024) (C : Fin 4096)
    (hC : C.val = 1024 * (t.val / 8 % 4) + r.val) :
    (iblk m c 2 t : Vec Ideal S1x1024 .f32) (ix2 0 r) = bArr m c (ix1 C) := by
  obtain ⟨-, -, -, -, e0, e1, -⟩ := index_facts t
  unfold iblk
  rw [View.read_apply]
  show (V m c main_v9 : S1x4096.Idx → EReal) _ = _
  rw [bias_eq]
  refine shapeCast_apply _ _ _ _ ?_
  show ((⟨1, ![4096]⟩ : Shape).rowMajor (ix1 C)).val = ((⟨2, ![1, 4096]⟩ : Shape).rowMajor (((cfg0.win 2).blk t).view.emb (ix2 0 r))).val
  rw [Shape.rowMajor_val_one, Shape.rowMajor_val_two]
  show C.val = (win0_2.index t (0 : Fin 2) * 1 + 1 * 0) * 4096 + (win0_2.index t (1 : Fin 2) * 1024 + 1 * r.val)
  omega

end Cert.KernelIdeal.Acc
end
-- ==== Proof.BlockSum.lean ====
/-
  A sum over 4096 positions, taken 512 at a time.

  Addition in a commutative monoid may be regrouped freely, so summing eight consecutive runs of 512 terms
  and then adding the eight partial sums gives the sum of all 4096 terms.  This is the only algebraic law the
  comparison of a matrix product accumulated over eight blocks of the contracted axis with one whole product
  needs; it holds for the extended reals as for any commutative monoid, with no finiteness hypothesis.
-/
import Mathlib

open scoped BigOperators

namespace Cert.BlockSum

/-- Position `512 * s + k` of run `s`, as a position among the 4096. -/
abbrev pos (s : Fin 8) (k : Fin 512) : Fin 4096 := ⟨512 * s.val + k.val, by have := s.isLt; have := k.isLt; omega⟩

/-- The eight runs of 512 exhaust the 4096 positions, each exactly once. -/
theorem sum_runs {β : Type*} [AddCommMonoid β] (g : Fin 4096 → β) :
    ∑ s : Fin 8, ∑ k : Fin 512, g (pos s k) = ∑ j : Fin 4096, g j := by
  have e : ∑ j : Fin 4096, g j = ∑ p : Fin 8 × Fin 512, g (finProdFinEquiv p) :=
    (Equiv.sum_comp (finProdFinEquiv (m := 8) (n := 512)) g).symm
  rw [e, Fintype.sum_prod_type]
  refine Finset.sum_congr rfl fun s _ => Finset.sum_congr rfl fun k _ => congrArg g (Fin.ext ?_)
  show 512 * s.val + k.val = k.val + 512 * s.val
  omega

/-- The same with the partial sums indexed by the naturals below 8, as a fold over consecutive steps presents them. -/
theorem sum_range_runs {β : Type*} [AddCommMonoid β] (g : Fin 4096 → β) (part : ℕ → β)
    (hpart : ∀ s : Fin 8, part s.val = ∑ k : Fin 512, g (pos s k)) :
    ∑ s ∈ Finset.range 8, part s = ∑ j : Fin 4096, g j := by
  rw [Finset.sum_range, ← sum_runs g]
  exact Finset.sum_congr rfl fun s _ => hpart s

end Cert.BlockSum
-- ==== Proof.KernelValue.lean ====
/-
  The kernel's result array is `linear x (ternary w) b`.

  An output block is written back at the last of its eight reduction steps (`t % 8 = 7`).  What is written at
  element (p, r) of the block is the scratch's running sum plus the bias of the column: zero plus the eight
  block products of the run, plus `b`.  Each block product is a sum over 512 consecutive positions of the
  contracted axis — step `s` covers positions `512·s … 512·s + 511` — of `x (R, ·) * q (C, ·)` for the element's
  row `R = 1024·(t/32) + p` and column `C = 1024·(t/8%4) + r` in the whole arrays; the eight runs regroup
  into the one sum over all 4096 positions.  The 32 written blocks tile the [8192, 4096] result.
-/
import proofs.«108350_j4423816315410_2_alg».proof.Proof.Gen.KernelIdeal.Value
import Idealize.ShloMosaic.Lib.Pipeline.Value
import Idealize.ShloMosaic.Lib.Tactic
import proofs.«108350_j4423816315410_2_alg».proof.Proof.Fold
import proofs.«108350_j4423816315410_2_alg».proof.Proof.Blocks
import proofs.«108350_j4423816315410_2_alg».proof.Proof.BlockSum

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.QLinear

variable (m : (ℓ : Loc nD τ sig) → Buf (Elt Ideal) ℓ) (ρ : Dev nD → PrngReg)

/-- The result both programs are compared at, as a function of the kernel's three argument arrays. -/
abbrev result (c : Dev nD) : S8192x4096.Idx → EReal := linear (xArr m c) (wArr m c) (bArr m c)

/-- The block product of step `s` of point `t`'s run, at element (p, r): the run of 512 positions from `512·s`
    of the row-by-row products of `x` and the ternary weights. -/
theorem addend_eq (c : Dev nD) (t : Fin cfg0.N) (s : Fin 8) (p r : Fin 1024) (R : Fin 8192) (C : Fin 4096)
    (hR : R.val = 1024 * (t.val / 32) + p.val) (hC : C.val = 1024 * (t.val / 8 % 4) + r.val) :
    addend m c (8 * (t.val / 8) + s.val) (ix2 p r)
      = ∑ k : Fin 512, xArr m c (ix2 R (Cert.BlockSum.pos s k)) * wArr m c (ix2 C (Cert.BlockSum.pos s k)) := by
  have hN : cfg0.N = 256 := N_0
  have ht : t.val < 256 := lt_of_lt_of_eq t.isLt hN
  have hs : s.val < 8 := s.isLt
  have hn : 8 * (t.val / 8) + s.val < cfg0.N := by omega
  rw [addend_of_lt m c _ hn]
  unfold blockProduct
  refine Finset.sum_congr rfl fun k _ => ?_
  have hk : k.val < 512 := k.isLt
  rw [x_block_apply m c ⟨_, hn⟩ p k R (Cert.BlockSum.pos s k) (by show R.val = 1024 * ((8 * (t.val / 8) + s.val) / 32) + p.val; omega)
      (by show 512 * s.val + k.val = 512 * ((8 * (t.val / 8) + s.val) % 8) + k.val; omega),
    w_block_apply m c ⟨_, hn⟩ r k C (Cert.BlockSum.pos s k) (by show C.val = 1024 * ((8 * (t.val / 8) + s.val) / 8 % 4) + r.val; omega)
      (by show 512 * s.val + k.val = 512 * ((8 * (t.val / 8) + s.val) % 8) + k.val; omega)]

/-- At the last step of a run the scratch is this step over what the step before left, and the output block is
    that running sum plus the bias row. -/
theorem last_step_eq (c : Dev nD) (t : Fin cfg0.N) (h0 : ¬t.val % 8 = 0) (h7 : t.val % 8 = 7) :
    out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2
      = k0_pay3 (outsAt0 m c t.val t.isLt).2 (iblk m c 2 t) := by
  have hs : (outsAt0 m c t.val t.isLt).2 = k0_pay2 (iblk m c 0 t) (iblk m c 1 t) (outsAt0 m c (t.val - 1) (Nat.lt_of_le_of_lt (Nat.sub_le _ _) t.isLt)).2 := by
    rw [outsAt0_C m c t h0 h7]
    dsimp only
    exact scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2
  rw [hs]
  exact out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2

/-- What a point that writes the output back writes: its block of `result`. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have h0 : ¬t.val % 8 = 0 := by omega
  have hN : cfg0.N = 256 := N_0
  have ht : t.val < 256 := lt_of_lt_of_eq t.isLt hN
  obtain ⟨-, -, -, -, -, -, e0, e1⟩ := index_facts t
  refine (Value.flushed3_C m c t h0 h7).trans ?_
  rw [last_step_eq m c t h0 h7]
  funext j
  obtain ⟨p, r, rfl⟩ : ∃ (p r : Fin 1024), j = ix2 p r := ⟨j 0, j 1, eq_ix2 j⟩
  rw [View.read_apply]
  show k0_pay3 (outsAt0 m c t.val t.isLt).2 (iblk m c 2 t) (ix2 p r) = result m c (((cfg0.win 3).blk t).view.emb (ix2 p r))
  have hp : p.val < 1024 := p.isLt
  have hr : r.val < 1024 := r.isLt
  have eR : (((cfg0.win 3).blk t).view.emb (ix2 p r) 0).val = 1024 * (t.val / 32) + p.val := by
    show win0_3.index t (0 : Fin 2) * 1024 + 1 * p.val = _; omega
  have eC : (((cfg0.win 3).blk t).view.emb (ix2 p r) 1).val = 1024 * (t.val / 8 % 4) + r.val := by
    show win0_3.index t (1 : Fin 2) * 1024 + 1 * r.val = _; omega
  rw [epilogue_apply, scratch_fold, zero_add, h7,
    bias_block_apply m c t r (((cfg0.win 3).blk t).view.emb (ix2 p r) 1) eC]
  show _ = linear (xArr m c) (wArr m c) (bArr m c) _
  unfold linear
  refine congrArg (· + _) ?_
  exact Cert.BlockSum.sum_range_runs _ _ fun s =>
    addend_eq m c t s p r (((cfg0.win 3).blk t).view.emb (ix2 p r) 0) (((cfg0.win 3).blk t).view.emb (ix2 p r) 1) eR eC

/-- An index of the result lies in a point's output block iff each coordinate lies in the block's range. -/
theorem mem_out_block (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v10).slice (win0_3.rect t)).set ↔ _
  rw [View.set_slice_whole, Rect.mem_set_unit]
  exact Iff.rfl

/-- Every index of the result is in the block some point writes back: the last step of its block's run. -/
theorem cover (i : S8192x4096.Idx) : ∃ t : Fin cfg0.N, (cfg0.win 3).flush t = true ∧ i ∈ ((cfg0.win 3).blk t).view.set := by
  have hN : cfg0.N = 256 := N_0
  have hi0 : (i 0).val < 8192 := (i 0).isLt
  have hi1 : (i 1).val < 4096 := (i 1).isLt
  have hlt : ((i 0).val / 1024 * 4 + (i 1).val / 1024) * 8 + 7 < cfg0.N := by omega
  refine ⟨⟨_, hlt⟩, (flush0_3 _).mpr (by show (((i 0).val / 1024 * 4 + (i 1).val / 1024) * 8 + 7) % 8 = 7; omega), ?_⟩
  obtain ⟨-, -, -, -, -, -, e0, e1⟩ := index_facts ⟨_, hlt⟩
  rw [mem_out_block]
  intro a
  match a with
  | ⟨0, _⟩ =>
    show win0_3.index ⟨_, hlt⟩ (0 : Fin 2) * 1024 ≤ (i 0).val ∧ (i 0).val < win0_3.index ⟨_, hlt⟩ (0 : Fin 2) * 1024 + 1024
    rw [e0]; dsimp only; omega
  | ⟨1, _⟩ =>
    show win0_3.index ⟨_, hlt⟩ (1 : Fin 2) * 1024 ≤ (i 1).val ∧ (i 1).val < win0_3.index ⟨_, hlt⟩ (1 : Fin 2) * 1024 + 1024
    rw [e1]; dsimp only; omega

/-- The result array after the run. -/
theorem final (c : Dev nD) : (dats m 0 c).arrAt 3 cfg0.N = result m c :=
  (dats m 0 c).arrAt_eq_of_cover 3 (result m c) (fun t hf => flushed_eq m c t hf) cover

/-- The kernel's run: it terminates with the result array at `result` and the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Acc
end
-- ==== Proof.RefIsSpec.lean ====
/-
  The reference computes `linear x (ternary w) b`.

  Read one operation at a time, entry (r, c) of the reference's result is the contraction
  `∑ k, x (r, k) * q (c, k)` of the whole 4096-long axis, where `q` is the quantized weight matrix, plus the
  bias broadcast along the rows, which at (r, c) is `b c`.  The quantization is the same term as the
  specification's, so it is matched as a whole.
-/
import proofs.«108350_j4423816315410_2_alg».proof.Proof.Gen.ReferenceIdeal.Read
import proofs.«108350_j4423816315410_2_alg».proof.Proof.Spec

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx Cert.QLinear

/-- The reference's quantized weights are the specification's, operation for operation. -/
theorem weights_eq (w : (⟨S4096x4096, .f32⟩ : BufTy).Contents (Elt Ideal)) :
    val_main_v7 (F := Ideal) w = ternary Facts₀.reducesTo_S4096x4096_S_d0_1 Facts₀.h_S_ Facts₀.bcast_S_S4096x4096 w := rfl

/-- Entry by entry, the reference's result is `x · qᵀ + b`. -/
theorem result_eq (x : (⟨S8192x4096, .f32⟩ : BufTy).Contents (Elt Ideal)) (w : (⟨S4096x4096, .f32⟩ : BufTy).Contents (Elt Ideal))
    (b : (⟨S4096, .f32⟩ : BufTy).Contents (Elt Ideal)) :
    val_main_v11 (F := Ideal) x w b
      = linear x (ternary Facts₀.reducesTo_S4096x4096_S_d0_1 Facts₀.h_S_ Facts₀.bcast_S_S4096x4096 w) b := by
  funext i
  have el : ∀ k, lidx_main_v8 i k = ix2 (i 0) k := fun k => funext fun a => Fin.ext (by match a with | ⟨0, _⟩ => rfl | ⟨1, _⟩ => rfl)
  have er : ∀ k, ridx_main_v8 i k = ix2 (i 1) k := fun k => funext fun a => Fin.ext (by match a with | ⟨0, _⟩ => rfl | ⟨1, _⟩ => rfl)
  have eb : idx_main_v9 (idx_main_v10 i) = ix1 (i 1) := funext fun a => Fin.ext (by match a with | ⟨0, _⟩ => rfl)
  rw [val_main_v11_apply, val_main_v8_apply, val_main_v10_apply, val_main_v9_apply, weights_eq, eb]
  simp only [el, er]
  rfl

end Cert.ReferenceIdeal.RefValue

end
-- ==== Proof.lean ====
/-
  A linear layer with ternary weights: the kernel against its plain reference, over the extended reals.

  Both programs quantize the weights on the host by the same operations — γ = mean |w| + ε, then
  round-half-even (w / γ) clamped to [-1, 1] — and then form `x · qᵀ + b`.  The reference contracts the
  whole 4096-long axis at once.  The kernel walks an 8 × 4 × 8 grid: for each [1024, 1024] output block it
  keeps a running sum in a scratch buffer, starts it from zero, adds the product of a [1024, 512] block of `x`
  with the transpose of a [1024, 512] block of `q` at each of eight steps, and at the last step writes the sum
  plus the bias row to the output.  The changes of float format (of `x` per block, of `q` once) are the
  identity on extended reals, so element (r, c) of the kernel's result is
  `(0 + ∑ s < 8, ∑ k < 512, x (r, 512·s + k) * q (c, 512·s + k)) + b c`, and regrouping the eight runs of 512
  into one sum over 4096 positions — commutativity and associativity of addition only, so no finiteness of
  the inputs is used — gives the reference's `(∑ k < 4096, x (r, k) * q (c, k)) + b c`.

  The modules: `BlockSum` (the regrouping law), `Spec` (the common function), `RefIsSpec` (the reference
  computes it), `Pieces` and `PayloadAt` (what one grid point's body stores, and those values at an element),
  `Fold` (the scratch after any point), `Blocks` (a block's element in the whole arrays), `KernelValue` (the
  kernel computes the common function).  Reading the kernel over the extended reals changes no operation of its
  text, so the claim relating the kernel to that reading has no conjunct to prove.
-/
import proofs.«108350_j4423816315410_2_alg».proof.Defs
import proofs.«108350_j4423816315410_2_alg».proof.Proof.Gen.Kernel
import proofs.«108350_j4423816315410_2_alg».proof.Proof.Gen.Kernel.Skeleton
import proofs.«108350_j4423816315410_2_alg».proof.Proof.Gen.Kernel.Launch
import proofs.«108350_j4423816315410_2_alg».proof.Proof.Gen.Kernel.Points
import proofs.«108350_j4423816315410_2_alg».proof.Proof.Gen.Kernel.Frame
import proofs.«108350_j4423816315410_2_alg».proof.Proof.Gen.KernelIdeal
import proofs.«108350_j4423816315410_2_alg».proof.Proof.Gen.KernelIdeal.Skeleton
import proofs.«108350_j4423816315410_2_alg».proof.Proof.Gen.KernelIdeal.Launch
import proofs.«108350_j4423816315410_2_alg».proof.Proof.Gen.KernelIdeal.Points
import proofs.«108350_j4423816315410_2_alg».proof.Proof.Gen.KernelIdeal.Frame
import proofs.«108350_j4423816315410_2_alg».proof.Proof.Gen.ReferenceIdeal
import proofs.«108350_j4423816315410_2_alg».proof.Proof.Gen.Pre_finite_inputs
import proofs.«108350_j4423816315410_2_alg».proof.Proof.Gen.KernelIdeal.Value
import proofs.«108350_j4423816315410_2_alg».proof.Proof.Gen.ReferenceIdeal.Run
import proofs.«108350_j4423816315410_2_alg».proof.Proof.Gen.ReferenceIdeal.Read
import proofs.«108350_j4423816315410_2_alg».proof.Proof.KernelValue
import proofs.«108350_j4423816315410_2_alg».proof.Proof.RefIsSpec
import Idealize.ShloMosaic.Adequacy
import Idealize.ShloMosaic.Init

noncomputable section

namespace Cert.Proof

open Idealize.ShloMosaic Idealize.SL.Sem

/-- The kernel as printed runs to completion and leaves its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: it runs, and writes no argument. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with `x · ternary(w)ᵀ + b`. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
